-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S800000x256 : Shape := ⟨2, ![800000, 256]⟩
abbrev S800000 : Shape := ⟨1, ![800000]⟩
abbrev S768x256 : Shape := ⟨2, ![768, 256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S800000x256 : S_.BroadcastsInDim S800000x256 (![] : Fin 0 → Fin S800000x256.rank)
  reducesTo_S800000x256_S_d0_1 : S800000x256.ReducesTo [0, 1] S_
  bcast_S_S768x256 : S_.BroadcastsInDim S768x256 (![] : Fin 0 → Fin S768x256.rank)
  reducesTo_S768x256_S_d0_1 : S768x256.ReducesTo [0, 1] S_

variable [Facts]

def fn_part1 {F : FTy → Type} [FloatOps F] (main_v13 : IVec S_ 1) (main_v16 : IVec S768x256 1) : IVec S_ 1 :=
  let main_c_5 : IVec S_ 1 := constantI S_ 1 1#1
  let main_v17 : IVec S_ 1 := (fun x v => Host.reduce IntOp.andi x v reducesTo_S768x256_S_d0_1 h_S_) main_v16 main_c_5
  let main_v18 : IVec S_ 1 := andi main_v13 main_v17
  main_v18

def fn {F : FTy → Type} [FloatOps F] (main_arg0 : FVec F S100000x256 .f32) (main_arg1 : FVec F S800000x256 .f32) (main_arg2 : FVec F S800000x256 .f32) (main_arg3 : IVec S800000 32) (main_arg4 : IVec S800000 32) (main_arg5 : IVec S800000 32) (main_arg6 : IVec S800000 32) (main_arg7 : FVec F S768x256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S800000x256 .f32 := Host.absf main_arg1
  let main_cst_0 : FVec F S_ .f32 := constant S_ .f32 0x7F800000#32
  let main_v5 : FVec F S800000x256 .f32 := broadcastInDim S800000x256 ![] bcast_S_S800000x256 main_cst_0
  let main_v6 : IVec S800000x256 1 := cmpf .olt main_v4 main_v5
  let main_c_1 : IVec S_ 1 := constantI S_ 1 1#1
  let main_v7 : IVec S_ 1 := (fun x v => Host.reduce IntOp.andi x v reducesTo_S800000x256_S_d0_1 h_S_) main_v6 main_c_1
  let main_v8 : IVec S_ 1 := andi main_v3 main_v7
  let main_v9 : FVec F S800000x256 .f32 := Host.absf main_arg2
  let main_cst_2 : FVec F S_ .f32 := constant S_ .f32 0x7F800000#32
  let main_v10 : FVec F S800000x256 .f32 := broadcastInDim S800000x256 ![] bcast_S_S800000x256 main_cst_2
  let main_v11 : IVec S800000x256 1 := cmpf .olt main_v9 main_v10
  let main_c_3 : IVec S_ 1 := constantI S_ 1 1#1
  let main_v12 : IVec S_ 1 := (fun x v => Host.reduce IntOp.andi x v reducesTo_S800000x256_S_d0_1 h_S_) main_v11 main_c_3
  let main_v13 : IVec S_ 1 := andi main_v8 main_v12
  let main_v14 : FVec F S768x256 .f32 := Host.absf main_arg7
  let main_cst_4 : FVec F S_ .f32 := constant S_ .f32 0x7F800000#32
  let main_v15 : FVec F S768x256 .f32 := broadcastInDim S768x256 ![] bcast_S_S768x256 main_cst_4
  let main_v16 : IVec S768x256 1 := cmpf .olt main_v14 main_v15
  fn_part1 (F := F) main_v13 main_v16
-- ==== Kernel.lean ====
abbrev S100000x256 : Shape := ⟨2, ![100000, 256]⟩
abbrev S800000x256 : Shape := ⟨2, ![800000, 256]⟩
abbrev S800000 : Shape := ⟨1, ![800000]⟩
abbrev S768x256 : Shape := ⟨2, ![768, 256]⟩
abbrev S_ : Shape := ⟨0, ![]⟩
abbrev S800000x1 : Shape := ⟨2, ![800000, 1]⟩
abbrev S1000x256 : Shape := ⟨2, ![1000, 256]⟩
abbrev S256x256 : Shape := ⟨2, ![256, 256]⟩

abbrev nBuf : Space → Nat
  | .hbm => 25
  | .vmem => 13
  | .smem => 0
  | _ => 0

abbrev bufTy : (tb : Table) → Fin (tcTables nBuf tb) → BufTy
  | .hbm, ⟨0, _⟩ => ⟨S100000x256, .f32⟩
  | .hbm, ⟨1, _⟩ => ⟨S800000x256, .f32⟩
  | .hbm, ⟨2, _⟩ => ⟨S800000x256, .f32⟩
  | .hbm, ⟨3, _⟩ => ⟨S800000, .i32⟩
  | .hbm, ⟨4, _⟩ => ⟨S800000, .i32⟩
  | .hbm, ⟨5, _⟩ => ⟨S800000, .i32⟩
  | .hbm, ⟨6, _⟩ => ⟨S800000, .i32⟩
  | .hbm, ⟨7, _⟩ => ⟨S768x256, .f32⟩
  | .hbm, ⟨8, _⟩ => ⟨S_, .f32⟩
  | .hbm, ⟨9, _⟩ => ⟨S100000x256, .f32⟩
  | .hbm, ⟨10, _⟩ => ⟨S800000x1, .i32⟩
  | .hbm, ⟨11, _⟩ => ⟨S100000x256, .f32⟩
  | .hbm, ⟨12, _⟩ => ⟨S_, .f32⟩
  | .hbm, ⟨13, _⟩ => ⟨S100000x256, .f32⟩
  | .hbm, ⟨14, _⟩ => ⟨S800000x1, .i32⟩
  | .hbm, ⟨15, _⟩ => ⟨S100000x256, .f32⟩
  | .hbm, ⟨16, _⟩ => ⟨S_, .f32⟩
  | .hbm, ⟨17, _⟩ => ⟨S100000x256, .f32⟩
  | .hbm, ⟨18, _⟩ => ⟨S800000x1, .i32⟩
  | .hbm, ⟨19, _⟩ => ⟨S100000x256, .f32⟩
  | .hbm, ⟨20, _⟩ => ⟨S_, .f32⟩
  | .hbm, ⟨21, _⟩ => ⟨S100000x256, .f32⟩
  | .hbm, ⟨22, _⟩ => ⟨S800000x1, .i32⟩
  | .hbm, ⟨23, _⟩ => ⟨S100000x256, .f32⟩
  | .hbm, ⟨24, _⟩ => ⟨S100000x256, .f32⟩
  | .local _ .vmem, ⟨0, _⟩ => ⟨S1000x256, .f32⟩
  | .local _ .vmem, ⟨1, _⟩ => ⟨S1000x256, .f32⟩
  | .local _ .vmem, ⟨2, _⟩ => ⟨S1000x256, .f32⟩
  | .local _ .vmem, ⟨3, _⟩ => ⟨S1000x256, .f32⟩
  | .local _ .vmem, ⟨4, _⟩ => ⟨S1000x256, .f32⟩
  | .local _ .vmem, ⟨5, _⟩ => ⟨S1000x256, .f32⟩
  | .local _ .vmem, ⟨6, _⟩ => ⟨S1000x256, .f32⟩
  | .local _ .vmem, ⟨7, _⟩ => ⟨S1000x256, .f32⟩
  | .local _ .vmem, ⟨8, _⟩ => ⟨S1000x256, .f32⟩
  | .local _ .vmem, ⟨9, _⟩ => ⟨S1000x256, .f32⟩
  | .local _ .vmem, ⟨10, _⟩ => ⟨S768x256, .f32⟩
  | .local _ .vmem, ⟨11, _⟩ => ⟨S1000x256, .f32⟩
  | .local _ .vmem, ⟨12, _⟩ => ⟨S1000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S768x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S100000x256 : S_.BroadcastsInDim S100000x256 (![] : Fin 0 → Fin S100000x256.rank)
  bcast_S800000_S800000x1_0 : S800000.BroadcastsInDim S800000x1 (![0] : Fin 1 → Fin S800000x1.rank)
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S768x256_S256x256_0_0 : ∀ a, (![0, 0] : Fin 2 → Nat) a + S256x256.size a ≤ S768x256.size a
  h_S256x256 : 0 < S256x256.numel
  inb_S768x256_S256x256_256_0 : ∀ a, (![256, 0] : Fin 2 → Nat) a + S256x256.size a ≤ S768x256.size a
  inb_S768x256_S256x256_512_0 : ∀ a, (![512, 0] : Fin 2 → Nat) a + S256x256.size a ≤ S768x256.size a
  bitsLt_bf16_f32 : FTy.bits .bf16 < FTy.bits .f32
  scatter_S100000x256_S800000x1_S800000x256_1_0_0_1_wf : ScatterDims.WF S100000x256 S800000x1 S800000x256 [1] [0] [0] 1
  dot_S1000x256_S256x256_S1000x256_1_0_0_1_n_n_wf : DotDims.WF S1000x256 S256x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S100000x256.size a
  hwx0_0 : ∀ i : grid0.Coords, EltTy.bits .f32 = 32 ∨ (Rect.block (s := S100000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x256.size a ≤ S100000x256.size a
  hwx0_1 : ∀ i : grid0.Coords, EltTy.bits .f32 = 32 ∨ (Rect.block (s := S100000x256) S1000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S100000x256.size a
  hwx0_2 : ∀ i : grid0.Coords, EltTy.bits .f32 = 32 ∨ (Rect.block (s := S100000x256) S1000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S100000x256.size a
  hwx0_3 : ∀ i : grid0.Coords, EltTy.bits .f32 = 32 ∨ (Rect.block (s := S100000x256) S1000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x256.size a ≤ S100000x256.size a
  hwx0_4 : ∀ i : grid0.Coords, EltTy.bits .f32 = 32 ∨ (Rect.block (s := S100000x256) S1000x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x256.size a ≤ S768x256.size a
  hwx0_5 : ∀ i : grid0.Coords, EltTy.bits .f32 = 32 ∨ (Rect.block (s := S768x256) S768x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x256.size a ≤ S100000x256.size a
  hwx0_6 : ∀ i : grid0.Coords, EltTy.bits .f32 = 32 ∨ (Rect.block (s := S100000x256) S1000x256.size (cc0_transform_6 i) (hinb0_6 i)).WholeWords (EltTy.packing .f32)

variable [Facts₀]

def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf

abbrev win0_0 : Pipeline.Window sig grid0 :=
  Pipeline.Window.ofSpec (Memref.whole main_v2) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1000x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S1000x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S768x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x256 : Shape := ⟨2, ![100000, 256]⟩
abbrev S800000x256 : Shape := ⟨2, ![800000, 256]⟩
abbrev S800000 : Shape := ⟨1, ![800000]⟩
abbrev S768x256 : Shape := ⟨2, ![768, 256]⟩
abbrev S_ : Shape := ⟨0, ![]⟩
abbrev S800000x1 : Shape := ⟨2, ![800000, 1]⟩
abbrev S100000x768 : Shape := ⟨2, ![100000, 768]⟩

abbrev nBuf : Space → Nat
  | .hbm => 28
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S800000x256, .f32⟩
  | .hbm, ⟨2, _⟩ => ⟨S800000x256, .f32⟩
  | .hbm, ⟨3, _⟩ => ⟨S800000, .i32⟩
  | .hbm, ⟨4, _⟩ => ⟨S800000, .i32⟩
  | .hbm, ⟨5, _⟩ => ⟨S800000, .i32⟩
  | .hbm, ⟨6, _⟩ => ⟨S800000, .i32⟩
  | .hbm, ⟨7, _⟩ => ⟨S768x256, .f32⟩
  | .hbm, ⟨8, _⟩ => ⟨S_, .f32⟩
  | .hbm, ⟨9, _⟩ => ⟨S100000x256, .f32⟩
  | .hbm, ⟨10, _⟩ => ⟨S800000x1, .i32⟩
  | .hbm, ⟨11, _⟩ => ⟨S100000x256, .f32⟩
  | .hbm, ⟨12, _⟩ => ⟨S_, .f32⟩
  | .hbm, ⟨13, _⟩ => ⟨S100000x256, .f32⟩
  | .hbm, ⟨14, _⟩ => ⟨S800000x1, .i32⟩
  | .hbm, ⟨15, _⟩ => ⟨S100000x256, .f32⟩
  | .hbm, ⟨16, _⟩ => ⟨S100000x256, .f32⟩
  | .hbm, ⟨17, _⟩ => ⟨S_, .f32⟩
  | .hbm, ⟨18, _⟩ => ⟨S100000x256, .f32⟩
  | .hbm, ⟨19, _⟩ => ⟨S800000x1, .i32⟩
  | .hbm, ⟨20, _⟩ => ⟨S100000x256, .f32⟩
  | .hbm, ⟨21, _⟩ => ⟨S_, .f32⟩
  | .hbm, ⟨22, _⟩ => ⟨S100000x256, .f32⟩
  | .hbm, ⟨23, _⟩ => ⟨S800000x1, .i32⟩
  | .hbm, ⟨24, _⟩ => ⟨S100000x256, .f32⟩
  | .hbm, ⟨25, _⟩ => ⟨S100000x256, .f32⟩
  | .hbm, ⟨26, _⟩ => ⟨S100000x768, .f32⟩
  | .hbm, ⟨27, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  bcast_S_S100000x256 : S_.BroadcastsInDim S100000x256 (![] : Fin 0 → Fin S100000x256.rank)
  bcast_S800000_S800000x1_0 : S800000.BroadcastsInDim S800000x1 (![0] : Fin 1 → Fin S800000x1.rank)
  concatenates_S100000x256_S100000x256_S100000x256_S100000x768_d1 : Shape.Concatenates [S100000x256, S100000x256, S100000x256] S100000x768 1
  scatter_S100000x256_S800000x1_S800000x256_1_0_0_1_wf : ScatterDims.WF S100000x256 S800000x1 S800000x256 [1] [0] [0] 1
  dot_S100000x768_S768x256_S100000x256_1_0_0_1_n_n_wf : DotDims.WF S100000x768 S768x256 S100000x256 [1] [0] [0] [1] [] []

variable [Facts₀]

def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S100000x768_S768x256_S100000x256_1_0_0_1_n_n : DotDims S100000x768 S768x256 S100000x256 where
  lhsContracting := [1]
  rhsContracting := [0]
  lhsNonContracting := [0]
  rhsNonContracting := [1]
  lhsBatch := []
  rhsBatch := []
  wf := dot_S100000x768_S768x256_S100000x256_1_0_0_1_n_n_wf

class Facts : Prop extends Facts₀ where

variable [Facts]
-- ==== Proof.Payload.lean ====
/-
  The kernel body's arithmetic at one entry of its output block.

  At a grid point the body holds five blocks of 1000 atoms by 256 features and three slices of 256
  weight rows. It subtracts the blocks in pairs, multiplies each of the three resulting 1000×256
  operands with its 256×256 weight slice starting from a zero accumulator, and adds the three
  products. A matrix product into a zero accumulator is, over the extended reals, the plain sum over
  the contracted index of the products of the entries; narrowing an operand to a shorter float format
  does not change its value there, and a cast between equal shapes changes nothing. So entry `(p, q)`
  of the stored block is

      ∑ₖ (x0[p,k] - x1[p,k]) · w1[k,q] + ∑ₖ (x2[p,k] - x3[p,k]) · w2[k,q] + ∑ₖ x4[p,k] · w3[k,q].
-/
import proofs.«123164_j33200097198200_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.AtomUpdate.Body

open Cert.KernelIdeal Cert.KernelIdeal.Gen Idealize.ShloMosaic Idealize.ShloMosaic.ValueIdx

/-- The left operand's row coordinate at output index `i` is `i`'s row, whatever the contracted index. -/
theorem lhs_row (i : S1000x256.Idx) (s : dot_S1000x256_S256x256_S1000x256_1_0_0_1_n_n.contr.Idx) :
    (dot_S1000x256_S256x256_S1000x256_1_0_0_1_n_n.lhsIdx i s 0).val = (i 0).val := by
  unfold DotDims.lhsIdx
  rw [dif_neg (show ¬(0 : Fin S1000x256.rank) ∈ dot_S1000x256_S256x256_S1000x256_1_0_0_1_n_n.lhsBatch by decide),
    dif_pos (show (0 : Fin S1000x256.rank) ∈ dot_S1000x256_S256x256_S1000x256_1_0_0_1_n_n.lhsNonContracting by decide)]
  rfl

/-- The right operand's column coordinate at output index `i` is `i`'s column, whatever the contracted index. -/
theorem rhs_col (i : S1000x256.Idx) (s : dot_S1000x256_S256x256_S1000x256_1_0_0_1_n_n.contr.Idx) :
    (dot_S1000x256_S256x256_S1000x256_1_0_0_1_n_n.rhsIdx i s 1).val = (i 1).val := by
  unfold DotDims.rhsIdx
  rw [dif_neg (show ¬(1 : Fin S256x256.rank) ∈ dot_S1000x256_S256x256_S1000x256_1_0_0_1_n_n.rhsBatch by decide),
    dif_pos (show (1 : Fin S256x256.rank) ∈ dot_S1000x256_S256x256_S1000x256_1_0_0_1_n_n.rhsNonContracting by decide)]
  rfl

/-- One of the body's matrix products, into its zero accumulator, at entry `(p, q)`: the sum over the 256
    contracted features of left entry `(p, k)` times right entry `(k, q)`. -/
theorem product_apply (l : FVec Ideal S1000x256 .bf16) (r : FVec Ideal S256x256 .bf16) (p : Fin 1000) (q : Fin 256) :
    matmul (F := Ideal) dot_S1000x256_S256x256_S1000x256_1_0_0_1_n_n none l r (constant (F := Ideal) S1000x256 .f32 0x00000000#32) (ix2 p q)
      = ∑ k : Fin 256, l (ix2 p k) * r (ix2 k q) := by
  simp only [matmul]
  rw [Ideal.matmul_constant_zero_apply, ← Equiv.sum_comp (contrEquiv1 dot_S1000x256_S256x256_S1000x256_1_0_0_1_n_n 256 rfl rfl).symm]
  refine Finset.sum_congr rfl fun k _ => ?_
  have hk := contrEquiv1_symm_val dot_S1000x256_S256x256_S1000x256_1_0_0_1_n_n 256 rfl rfl k
  have el : dot_S1000x256_S256x256_S1000x256_1_0_0_1_n_n.lhsIdx (ix2 p q) ((contrEquiv1 dot_S1000x256_S256x256_S1000x256_1_0_0_1_n_n 256 rfl rfl).symm k) = ix2 p k :=
    funext fun a => Fin.ext (by
      match a with
      | ⟨0, _⟩ => exact lhs_row _ _
      | ⟨1, _⟩ => exact (dot_S1000x256_S256x256_S1000x256_1_0_0_1_n_n.lhsIdx_val_of_single rfl _ _).trans hk)
  have er : dot_S1000x256_S256x256_S1000x256_1_0_0_1_n_n.rhsIdx (ix2 p q) ((contrEquiv1 dot_S1000x256_S256x256_S1000x256_1_0_0_1_n_n 256 rfl rfl).symm k) = ix2 k q :=
    funext fun a => Fin.ext (by
      match a with
      | ⟨0, _⟩ => exact (dot_S1000x256_S256x256_S1000x256_1_0_0_1_n_n.rhsIdx_val_of_single rfl _ _).trans hk
      | ⟨1, _⟩ => exact rhs_col _ _)
  rw [el, er]

/-- The stored value at entry `(p, q)` of the block: the three contractions, added left to right. -/
theorem payload_apply (x0 x1 x2 x3 x4 : FVec Ideal S1000x256 .f32) (w1 w2 w3 : FVec Ideal S256x256 .f32)
    (p : Fin 1000) (q : Fin 256) :
    k0_pay1 (F := Ideal) x0 x1 x2 x3 x4 w1 w2 w3 (ix2 p q)
      = (∑ k : Fin 256, (x0 (ix2 p k) - x1 (ix2 p k)) * w1 (ix2 k q)
          + ∑ k : Fin 256, (x2 (ix2 p k) - x3 (ix2 p k)) * w2 (ix2 k q))
          + ∑ k : Fin 256, x4 (ix2 p k) * w3 (ix2 k q) := by
  unfold k0_pay1
  simp only [shapeCast_self, addf_apply]
  rw [product_apply, product_apply, product_apply]
  rfl

end Cert.AtomUpdate.Body

end
-- ==== Proof.Spec.lean ====
/-
  The specification: the updated atom features as ONE function of the arrays the linear layer reads.

  Five arrays of 100000 atoms by 256 features enter: four sums of edge messages gathered per atom
  (`s1`, `s3` from the first message array, `s2`, `s4` from the second) and the atoms' own features
  `h`. The layer's weight matrix `w` has 768 rows and 256 columns; its rows 0–255 multiply the
  difference `s1 - s3`, its rows 256–511 the difference `s2 - s4`, its rows 512–767 the features `h`.
  Entry `(r, q)` of the result is therefore

      ∑ₖ (s1[r,k] - s3[r,k]) · w[k,q]  +  ∑ₖ (s2[r,k] - s4[r,k]) · w[256+k,q]  +  ∑ₖ h[r,k] · w[512+k,q],

  each sum over `k < 256`, over the extended reals. Both programs are shown to compute this function:
  one forms the three products block of rows by block of rows and adds them, the other lays the three
  operands side by side into 768 columns and contracts once.
-/
import Idealize.ShloMosaic.PureOps.Ideal
import Idealize.ShloMosaic.Lib.ValueIdx

noncomputable section

namespace Cert.AtomUpdate

open Idealize.ShloMosaic Idealize.ShloMosaic.ValueIdx

/-- Entry `(r, q)` of the updated features: the three contractions over 256 features, the weight rows
    taken from the matrix's first, second and third run of 256 rows. -/
def entry (s1 s3 s2 s4 h : FVec Ideal ⟨2, ![100000, 256]⟩ .f32) (w : FVec Ideal ⟨2, ![768, 256]⟩ .f32)
    (r : Fin 100000) (q : Fin 256) : EReal :=
  (∑ k : Fin 256, (s1 (ix2 r k) - s3 (ix2 r k)) * w (ix2 (⟨k.val, by omega⟩ : Fin 768) q)
    + ∑ k : Fin 256, (s2 (ix2 r k) - s4 (ix2 r k)) * w (ix2 (⟨256 + k.val, by omega⟩ : Fin 768) q))
    + ∑ k : Fin 256, h (ix2 r k) * w (ix2 (⟨512 + k.val, by omega⟩ : Fin 768) q)

/-- The updated features as a whole array: entry by entry, `entry` at the index's two coordinates. -/
def update (s1 s3 s2 s4 h : FVec Ideal ⟨2, ![100000, 256]⟩ .f32) (w : FVec Ideal ⟨2, ![768, 256]⟩ .f32) :
    FVec Ideal ⟨2, ![100000, 256]⟩ .f32 :=
  fun i => entry s1 s3 s2 s4 h w (i 0) (i 1)

/-- The array at the index with coordinates `(r, q)` is the entry there. -/
theorem update_apply (s1 s3 s2 s4 h : FVec Ideal ⟨2, ![100000, 256]⟩ .f32) (w : FVec Ideal ⟨2, ![768, 256]⟩ .f32)
    (r : Fin 100000) (q : Fin 256) :
    update s1 s3 s2 s4 h w (ix2 r q) = entry s1 s3 s2 s4 h w r q := rfl

end Cert.AtomUpdate

end
-- ==== Proof.BlockEntry.lean ====
/-
  One entry of the block a grid point writes, in terms of the whole arrays.

  At grid point number `b` the five atom-indexed operands are blocks of 1000 consecutive rows: row `p`
  of a block is row `b · 1000 + p` of its array, every column kept. The weight operand is the whole
  768×256 matrix, of which the body takes the three slices of 256 rows starting at rows 0, 256 and
  512: row `k` of a slice is row `k`, `256 + k`, `512 + k` of the matrix. Put into the body's
  arithmetic, entry `(p, q)` of the stored block is the specification's entry `(b · 1000 + p, q)`.
-/
import proofs.«123164_j33200097198200_1_alg».proof.Proof.Gen.KernelIdeal.Frame
import proofs.«123164_j33200097198200_1_alg».proof.Proof.Payload
import proofs.«123164_j33200097198200_1_alg».proof.Proof.Spec

noncomputable section

namespace Cert.AtomUpdate.Body

open Cert.KernelIdeal Cert.KernelIdeal.Gen Idealize.ShloMosaic Idealize.ShloMosaic.ValueIdx Cert.AtomUpdate

/-- The slice of weight rows `0 … 255`: its row `k` is the matrix's row `k`. -/
theorem slice_first (x5 : Vec Ideal S768x256 .f32) (k q : Fin 256) :
    View.ld x5 r0_1 (ix2 k q) = x5 (ix2 (⟨k.val, by omega⟩ : Fin 768) q) := by
  show x5 (r0_1.emb (ix2 k q)) = _
  refine congrArg x5 (funext fun a => Fin.ext ?_)
  match a with
  | ⟨0, _⟩ => show 0 + 1 * k.val = k.val; omega
  | ⟨1, _⟩ => show 0 + 1 * q.val = q.val; omega

/-- The slice of weight rows `256 … 511`: its row `k` is the matrix's row `256 + k`. -/
theorem slice_second (x5 : Vec Ideal S768x256 .f32) (k q : Fin 256) :
    View.ld x5 r0_2 (ix2 k q) = x5 (ix2 (⟨256 + k.val, by omega⟩ : Fin 768) q) := by
  show x5 (r0_2.emb (ix2 k q)) = _
  refine congrArg x5 (funext fun a => Fin.ext ?_)
  match a with
  | ⟨0, _⟩ => show 256 + 1 * k.val = 256 + k.val; omega
  | ⟨1, _⟩ => show 0 + 1 * q.val = q.val; omega

/-- The slice of weight rows `512 … 767`: its row `k` is the matrix's row `512 + k`. -/
theorem slice_third (x5 : Vec Ideal S768x256 .f32) (k q : Fin 256) :
    View.ld x5 r0_3 (ix2 k q) = x5 (ix2 (⟨512 + k.val, by omega⟩ : Fin 768) q) := by
  show x5 (r0_3.emb (ix2 k q)) = _
  refine congrArg x5 (funext fun a => Fin.ext ?_)
  match a with
  | ⟨0, _⟩ => show 512 + 1 * k.val = 512 + k.val; omega
  | ⟨1, _⟩ => show 0 + 1 * q.val = q.val; omega

/-- Entry `(p, q)` of the block stored at grid point number `b` is entry `(b · 1000 + p, q)` of `update` of
    the whole arrays, given that each operand block holds rows `b · 1000 …` of its array (`h0 … h4`) and
    that the weight operand is the whole matrix (`h5`). -/
theorem block_entry_ix (A0 A1 A2 A3 A4 : FVec Ideal S100000x256 .f32) (W : FVec Ideal S768x256 .f32)
    (x0 x1 x2 x3 x4 : FVec Ideal S1000x256 .f32) (x5 : Vec Ideal S768x256 .f32) (b : ℕ)
    (h0 : ∀ (p : Fin 1000) (k : Fin 256) (r : Fin 100000), r.val = b * 1000 + p.val → x0 (ix2 p k) = A0 (ix2 r k))
    (h1 : ∀ (p : Fin 1000) (k : Fin 256) (r : Fin 100000), r.val = b * 1000 + p.val → x1 (ix2 p k) = A1 (ix2 r k))
    (h2 : ∀ (p : Fin 1000) (k : Fin 256) (r : Fin 100000), r.val = b * 1000 + p.val → x2 (ix2 p k) = A2 (ix2 r k))
    (h3 : ∀ (p : Fin 1000) (k : Fin 256) (r : Fin 100000), r.val = b * 1000 + p.val → x3 (ix2 p k) = A3 (ix2 r k))
    (h4 : ∀ (p : Fin 1000) (k : Fin 256) (r : Fin 100000), r.val = b * 1000 + p.val → x4 (ix2 p k) = A4 (ix2 r k))
    (h5 : ∀ (k : Fin 768) (q : Fin 256), x5 (ix2 k q) = W (ix2 k q))
    (p : Fin 1000) (q : Fin 256) (r : Fin 100000) (hr : r.val = b * 1000 + p.val) :
    k0_pay1 (F := Ideal) x0 x1 x2 x3 x4 (View.ld x5 r0_1) (View.ld x5 r0_2) (View.ld x5 r0_3) (ix2 p q)
      = update A0 A1 A2 A3 A4 W (ix2 r q) := by
  refine (payload_apply x0 x1 x2 x3 x4 (View.ld x5 r0_1) (View.ld x5 r0_2) (View.ld x5 r0_3) p q).trans ?_
  rw [update_apply]
  unfold entry
  refine congrArg₂ (· + ·) (congrArg₂ (· + ·) ?_ ?_) ?_
  · exact Finset.sum_congr rfl fun k _ => by rw [h0 p k r hr, h1 p k r hr, slice_first, h5]
  · exact Finset.sum_congr rfl fun k _ => by rw [h2 p k r hr, h3 p k r hr, slice_second, h5]
  · exact Finset.sum_congr rfl fun k _ => by rw [h4 p k r hr, slice_third, h5]

/-- The same at an index `y` of the block and an index `i` of the array whose row is `b · 1000` plus `y`'s
    and whose column is `y`'s. -/
theorem block_entry (A0 A1 A2 A3 A4 : FVec Ideal S100000x256 .f32) (W : FVec Ideal S768x256 .f32)
    (x0 x1 x2 x3 x4 : FVec Ideal S1000x256 .f32) (x5 : Vec Ideal S768x256 .f32) (b : ℕ)
    (h0 : ∀ (p : Fin 1000) (k : Fin 256) (r : Fin 100000), r.val = b * 1000 + p.val → x0 (ix2 p k) = A0 (ix2 r k))
    (h1 : ∀ (p : Fin 1000) (k : Fin 256) (r : Fin 100000), r.val = b * 1000 + p.val → x1 (ix2 p k) = A1 (ix2 r k))
    (h2 : ∀ (p : Fin 1000) (k : Fin 256) (r : Fin 100000), r.val = b * 1000 + p.val → x2 (ix2 p k) = A2 (ix2 r k))
    (h3 : ∀ (p : Fin 1000) (k : Fin 256) (r : Fin 100000), r.val = b * 1000 + p.val → x3 (ix2 p k) = A3 (ix2 r k))
    (h4 : ∀ (p : Fin 1000) (k : Fin 256) (r : Fin 100000), r.val = b * 1000 + p.val → x4 (ix2 p k) = A4 (ix2 r k))
    (h5 : ∀ (k : Fin 768) (q : Fin 256), x5 (ix2 k q) = W (ix2 k q))
    (y : S1000x256.Idx) (i : S100000x256.Idx) (hi0 : (i 0).val = b * 1000 + (y 0).val) (hi1 : (i 1).val = (y 1).val) :
    k0_pay1 (F := Ideal) x0 x1 x2 x3 x4 (View.ld x5 r0_1) (View.ld x5 r0_2) (View.ld x5 r0_3) y
      = update A0 A1 A2 A3 A4 W i := by
  obtain ⟨p, q, rfl⟩ : ∃ (p : Fin 1000) (q : Fin 256), y = ix2 p q := ⟨y 0, y 1, eq_ix2 y⟩
  obtain ⟨r, s, rfl⟩ : ∃ (r : Fin 100000) (s : Fin 256), i = ix2 r s := ⟨i 0, i 1, eq_ix2 i⟩
  obtain rfl : s = q := Fin.ext hi1
  exact block_entry_ix A0 A1 A2 A3 A4 W x0 x1 x2 x3 x4 x5 b h0 h1 h2 h3 h4 h5 p s r hi0

end Cert.AtomUpdate.Body

end
-- ==== Proof.HostArrays.lean ====
/-
  The four arrays of gathered message sums, as the kernel's region finds them.

  Before the region is entered the program forms, four times, the per-atom sum of edge messages: every
  edge's 256-feature message is added into the row of the atom its index names, starting from an
  all-zero array of 100000 atoms. `gathered x id` names that array for a message array `x` and an
  index array `id`. The first and second use the first message array (with the first and third index
  arrays), the third and fourth the second message array (with the second and fourth index arrays).
  How the sum over edges is carried out is never opened: the same four arrays appear on both sides
  of the comparison.
-/
import proofs.«123164_j33200097198200_1_alg».proof.Proof.Gen.KernelIdeal.Frame
import Idealize.ShloMosaic.Lib.StableHlo.Run
import Idealize.ShloMosaic.PureOps.Ideal

noncomputable section

namespace Cert.AtomUpdate.Kernel

open Cert.KernelIdeal Cert.KernelIdeal.Gen Idealize.ShloMosaic Idealize.ShloMosaic.TcCoe Idealize.SL.Sem
open Idealize.ShloMosaic.StableHlo

/-- The per-atom sum of the messages `x` whose edge index in `id` names the atom, from an all-zero start. -/
def gathered (x : (⟨S800000x256, .f32⟩ : BufTy).Contents (Elt Ideal)) (id : (⟨S800000, .i32⟩ : BufTy).Contents (Elt Ideal)) :
    (⟨S100000x256, .f32⟩ : BufTy).Contents (Elt Ideal) :=
  Host.scatterAdd scatter_S100000x256_S800000x1_S800000x256_1_0_0_1
    (broadcastInDim S100000x256 ![] bcast_S_S100000x256 (constant (F := Ideal) S_ .f32 0x00000000#32))
    (broadcastInDim S800000x1 ![0] bcast_S800000_S800000x1_0 id) x

variable (m : (ℓ : Loc nD τ sig) → Buf (Elt Ideal) ℓ)

/-- The first window's array: the first message array gathered by the first index array. -/
theorem entry_sum1 (c : Dev nD) :
    V m c main_v2 = gathered (m ((c : Thread nD τ).loc main_arg1)) (m ((c : Thread nD τ).loc main_arg3)) := by
  unfold gathered
  dsimp only [V, hostOps0]
  after_results <;> rfl

/-- The second window's array: the first message array gathered by the third index array. -/
theorem entry_sum3 (c : Dev nD) :
    V m c main_v5 = gathered (m ((c : Thread nD τ).loc main_arg1)) (m ((c : Thread nD τ).loc main_arg5)) := by
  unfold gathered
  dsimp only [V, hostOps0]
  after_results <;> rfl

/-- The third window's array: the second message array gathered by the second index array. -/
theorem entry_sum2 (c : Dev nD) :
    V m c main_v8 = gathered (m ((c : Thread nD τ).loc main_arg2)) (m ((c : Thread nD τ).loc main_arg4)) := by
  unfold gathered
  dsimp only [V, hostOps0]
  after_results <;> rfl

/-- The fourth window's array: the second message array gathered by the fourth index array. -/
theorem entry_sum4 (c : Dev nD) :
    V m c main_v11 = gathered (m ((c : Thread nD τ).loc main_arg2)) (m ((c : Thread nD τ).loc main_arg6)) := by
  unfold gathered
  dsimp only [V, hostOps0]
  after_results <;> rfl

end Cert.AtomUpdate.Kernel

end
-- ==== Proof.Blocks.lean ====
/-
  From the blocks the grid points write to the whole output array.

  The grid has 100 points; point number `b` reads rows `b · 1000 … b · 1000 + 999` of each of the five
  atom-indexed arrays and the whole weight matrix, and writes rows `b · 1000 …` of the output. What it
  writes is, entry by entry, the specification `update` of the whole arrays (the per-entry statement
  is `Body.block_entry`), so each written block is the corresponding block of ONE array,
  `update` of the arrays the windows read. This is first said for arbitrary arrays: which rows a
  block holds depends on the index maps alone, not on what the arrays contain. Every row `r` of the
  output lies in the block of point `r / 1000`, so the blocks cover the output and the output ends
  holding `update` everywhere. Last, the arrays the region finds are named: the four gathered message
  sums, the atoms' features and the weights as launched.
-/
import proofs.«123164_j33200097198200_1_alg».proof.Proof.Gen.KernelIdeal.Value
import proofs.«123164_j33200097198200_1_alg».proof.Proof.BlockEntry
import proofs.«123164_j33200097198200_1_alg».proof.Proof.HostArrays

noncomputable section

namespace Cert.AtomUpdate.Kernel

open Cert.KernelIdeal Cert.KernelIdeal.Gen Cert.KernelIdeal.Value
open Idealize.ShloMosaic Idealize.ShloMosaic.TcCoe Idealize.SL.Sem Idealize.ShloMosaic.ValueIdx
open Cert.AtomUpdate Cert.AtomUpdate.Body
open Idealize.ShloMosaic.Pipeline (Dat)

/-- The zero offsets, however they are spelt. -/
theorem zero_offsets : (![0, 0] : Fin 2 → Nat) = fun _ => 0 := funext fun a => by fin_cases a <;> rfl

/-- The index maps, decided over the 100 grid points: the five atom-indexed operands sit at the output's
    block row and at block column 0, the weight operand at block (0, 0), and the output's block row is
    below 100 with block column 0. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = win0_6.index t (0 : Fin 2) ∧ win0_3.index t (1 : Fin 2) = 0
    ∧ win0_4.index t (0 : Fin 2) = win0_6.index t (0 : Fin 2) ∧ win0_4.index t (1 : Fin 2) = 0
    ∧ win0_5.index t (0 : Fin 2) = 0 ∧ win0_5.index t (1 : Fin 2) = 0
    ∧ win0_6.index t (0 : Fin 2) < 100 ∧ win0_6.index t (1 : Fin 2) = 0 :=
  (by decide +kernel : ∀ t : Fin grid0.N, _)

/-- Every block row below 100 is some grid point's. -/
theorem idx_onto : ∀ b : Fin 100, ∃ t : Fin cfg0.N, win0_6.index t = ![b.val, 0] :=
  (by decide +kernel : ∀ b : Fin 100, ∃ t : Fin grid0.N, win0_6.index t = ![b.val, 0])

/-! ## Which rows a block holds, for any contents of the arrays -/

/-- Row `p` of the first operand's block at point `t` is row `b · 1000 + p` of its array, `b` the output's block row; every column is kept. -/
theorem rows0 (X : (⟨S100000x256, .f32⟩ : BufTy).Contents (Elt Ideal)) (t : Fin cfg0.N) (p : Fin 1000) (k : Fin 256)
    (r : Fin 100000) (hr : r.val = win0_6.index t (0 : Fin 2) * 1000 + p.val) :
    ((cfg0.win 0).blk t).view.read (Elt Ideal) X (ix2 p k) = X (ix2 r k) := by
  have hf := idx_facts t
  show X (((cfg0.win 0).blk t).view.emb (ix2 p k)) = X (ix2 r k)
  have h : ((cfg0.win 0).blk t).view.emb (ix2 p k) = ix2 r k := by
    funext a; apply Fin.ext
    match a with
    | ⟨0, _⟩ => show win0_0.index t (0 : Fin 2) * 1000 + 1 * p.val = r.val; omega
    | ⟨1, _⟩ => show win0_0.index t (1 : Fin 2) * 256 + 1 * k.val = k.val; omega
  rw [h]

/-- The same for the second operand. -/
theorem rows1 (X : (⟨S100000x256, .f32⟩ : BufTy).Contents (Elt Ideal)) (t : Fin cfg0.N) (p : Fin 1000) (k : Fin 256)
    (r : Fin 100000) (hr : r.val = win0_6.index t (0 : Fin 2) * 1000 + p.val) :
    ((cfg0.win 1).blk t).view.read (Elt Ideal) X (ix2 p k) = X (ix2 r k) := by
  have hf := idx_facts t
  show X (((cfg0.win 1).blk t).view.emb (ix2 p k)) = X (ix2 r k)
  have h : ((cfg0.win 1).blk t).view.emb (ix2 p k) = ix2 r k := by
    funext a; apply Fin.ext
    match a with
    | ⟨0, _⟩ => show win0_1.index t (0 : Fin 2) * 1000 + 1 * p.val = r.val; omega
    | ⟨1, _⟩ => show win0_1.index t (1 : Fin 2) * 256 + 1 * k.val = k.val; omega
  rw [h]

/-- The same for the third operand. -/
theorem rows2 (X : (⟨S100000x256, .f32⟩ : BufTy).Contents (Elt Ideal)) (t : Fin cfg0.N) (p : Fin 1000) (k : Fin 256)
    (r : Fin 100000) (hr : r.val = win0_6.index t (0 : Fin 2) * 1000 + p.val) :
    ((cfg0.win 2).blk t).view.read (Elt Ideal) X (ix2 p k) = X (ix2 r k) := by
  have hf := idx_facts t
  show X (((cfg0.win 2).blk t).view.emb (ix2 p k)) = X (ix2 r k)
  have h : ((cfg0.win 2).blk t).view.emb (ix2 p k) = ix2 r k := by
    funext a; apply Fin.ext
    match a with
    | ⟨0, _⟩ => show win0_2.index t (0 : Fin 2) * 1000 + 1 * p.val = r.val; omega
    | ⟨1, _⟩ => show win0_2.index t (1 : Fin 2) * 256 + 1 * k.val = k.val; omega
  rw [h]

/-- The same for the fourth operand. -/
theorem rows3 (X : (⟨S100000x256, .f32⟩ : BufTy).Contents (Elt Ideal)) (t : Fin cfg0.N) (p : Fin 1000) (k : Fin 256)
    (r : Fin 100000) (hr : r.val = win0_6.index t (0 : Fin 2) * 1000 + p.val) :
    ((cfg0.win 3).blk t).view.read (Elt Ideal) X (ix2 p k) = X (ix2 r k) := by
  have hf := idx_facts t
  show X (((cfg0.win 3).blk t).view.emb (ix2 p k)) = X (ix2 r k)
  have h : ((cfg0.win 3).blk t).view.emb (ix2 p k) = ix2 r k := by
    funext a; apply Fin.ext
    match a with
    | ⟨0, _⟩ => show win0_3.index t (0 : Fin 2) * 1000 + 1 * p.val = r.val; omega
    | ⟨1, _⟩ => show win0_3.index t (1 : Fin 2) * 256 + 1 * k.val = k.val; omega
  rw [h]

/-- The same for the fifth operand. -/
theorem rows4 (X : (⟨S100000x256, .f32⟩ : BufTy).Contents (Elt Ideal)) (t : Fin cfg0.N) (p : Fin 1000) (k : Fin 256)
    (r : Fin 100000) (hr : r.val = win0_6.index t (0 : Fin 2) * 1000 + p.val) :
    ((cfg0.win 4).blk t).view.read (Elt Ideal) X (ix2 p k) = X (ix2 r k) := by
  have hf := idx_facts t
  show X (((cfg0.win 4).blk t).view.emb (ix2 p k)) = X (ix2 r k)
  have h : ((cfg0.win 4).blk t).view.emb (ix2 p k) = ix2 r k := by
    funext a; apply Fin.ext
    match a with
    | ⟨0, _⟩ => show win0_4.index t (0 : Fin 2) * 1000 + 1 * p.val = r.val; omega
    | ⟨1, _⟩ => show win0_4.index t (1 : Fin 2) * 256 + 1 * k.val = k.val; omega
  rw [h]

/-- The weight operand's block at every point is the whole matrix. -/
theorem rows5 (X : (⟨S768x256, .f32⟩ : BufTy).Contents (Elt Ideal)) (t : Fin cfg0.N) (k : Fin 768) (q : Fin 256) :
    ((cfg0.win 5).blk t).view.read (Elt Ideal) X (ix2 k q) = X (ix2 k q) := by
  have hf := idx_facts t
  show X (((cfg0.win 5).blk t).view.emb (ix2 k q)) = X (ix2 k q)
  have h : ((cfg0.win 5).blk t).view.emb (ix2 k q) = ix2 k q := by
    funext a; apply Fin.ext
    match a with
    | ⟨0, _⟩ => show win0_5.index t (0 : Fin 2) * 768 + 1 * k.val = k.val; omega
    | ⟨1, _⟩ => show win0_5.index t (1 : Fin 2) * 256 + 1 * q.val = q.val; omega
  rw [h]

/-- The body's value on the blocks of ANY six arrays at point `t`, as the write-back takes it, is block `t` of
    `update` of those arrays. -/
theorem written_block (t : Fin cfg0.N) (A0 A1 A2 A3 A4 : (⟨S100000x256, .f32⟩ : BufTy).Contents (Elt Ideal))
    (W : (⟨S768x256, .f32⟩ : BufTy).Contents (Elt Ideal)) :
    (cfg0.win 6).cut (grid0.coords t)
        (k0_pay1 (F := Ideal) (((cfg0.win 0).blk t).view.read (Elt Ideal) A0) (((cfg0.win 1).blk t).view.read (Elt Ideal) A1) (((cfg0.win 2).blk t).view.read (Elt Ideal) A2) (((cfg0.win 3).blk t).view.read (Elt Ideal) A3) (((cfg0.win 4).blk t).view.read (Elt Ideal) A4)
          (View.ld (((cfg0.win 5).blk t).view.read (Elt Ideal) W) r0_1) (View.ld (((cfg0.win 5).blk t).view.read (Elt Ideal) W) r0_2) (View.ld (((cfg0.win 5).blk t).view.read (Elt Ideal) W) r0_3))
      = ((cfg0.win 6).blk t).view.read (Elt Ideal) (update A0 A1 A2 A3 A4 W) := by
  have hf := idx_facts t
  funext j
  exact block_entry A0 A1 A2 A3 A4 W (((cfg0.win 0).blk t).view.read (Elt Ideal) A0) (((cfg0.win 1).blk t).view.read (Elt Ideal) A1) (((cfg0.win 2).blk t).view.read (Elt Ideal) A2) (((cfg0.win 3).blk t).view.read (Elt Ideal) A3) (((cfg0.win 4).blk t).view.read (Elt Ideal) A4) (((cfg0.win 5).blk t).view.read (Elt Ideal) W)
    (win0_6.index t (0 : Fin 2))
    (rows0 A0 t) (rows1 A1 t) (rows2 A2 t) (rows3 A3 t) (rows4 A4 t) (rows5 W t)
    ((cfg0.win 6).xinj (grid0.coords t) j) (((cfg0.win 6).blk t).view.emb j)
    (by show win0_6.index t (0 : Fin 2) * 1000 + 1 * (j 0).val = win0_6.index t (0 : Fin 2) * 1000 + (j 0).val; omega)
    (by show win0_6.index t (1 : Fin 2) * 256 + 1 * (j 1).val = (j 1).val; omega)

/-! ## The run's blocks and the whole array -/

variable (m : (ℓ : Loc nD τ sig) → Buf (Elt Ideal) ℓ) (ρ : Dev nD → PrngReg)

/-- What point `t` writes back is block `t` of `update` of the six windows' arrays as the region finds them. -/
theorem flushed_eq (c : Dev nD) (t : Fin cfg0.N) :
    (dats m 0 c).flushed 6 t = ((cfg0.win 6).blk t).view.read (Elt Ideal)
      (update (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5))) := by
  rw [flushed6]
  unfold out0_6
  rw [View.canon_unit_zero zero_offsets]
  simp only [View.ld_unit_zero (S := S1000x256) zero_offsets]
  unfold iblk
  exact written_block t _ _ _ _ _ _

/-- An index of the output is in point `t`'s block iff each coordinate is in the block's range on its axis. -/
theorem mem_blk (t : Fin cfg0.N) (i : S100000x256.Idx) :
    i ∈ ((cfg0.win 6).blk t).view.set ↔ ∀ a : Fin 2, win0_6.index t a * S1000x256.size a ≤ (i a).val
      ∧ (i a).val < win0_6.index t a * S1000x256.size a + S1000x256.size a := by
  show i ∈ ((View.whole main_v12).slice (win0_6.rect t)).set ↔ _
  rw [View.set_slice_whole, Rect.mem_set_unit]
  exact Iff.rfl

/-- Every index of the output is in the block of the point whose block row is the index's row over 1000. -/
theorem cover (i : S100000x256.Idx) :
    ∃ t : Fin cfg0.N, (cfg0.win 6).flush t = true ∧ i ∈ ((cfg0.win 6).blk t).view.set := by
  have hi0 : (i 0).val < 100000 := (i 0).isLt
  have hi1 : (i 1).val < 256 := (i 1).isLt
  obtain ⟨t, ht⟩ := idx_onto ⟨(i 0).val / 1000, by omega⟩
  have q0 : win0_6.index t (0 : Fin 2) = (i 0).val / 1000 := congrFun ht 0
  have q1 : win0_6.index t (1 : Fin 2) = 0 := congrFun ht 1
  refine ⟨t, flush0_6 t, ?_⟩
  rw [mem_blk]
  intro a
  match a with
  | ⟨0, _⟩ =>
    show win0_6.index t (0 : Fin 2) * 1000 ≤ (i 0).val ∧ (i 0).val < win0_6.index t (0 : Fin 2) * 1000 + 1000
    omega
  | ⟨1, _⟩ =>
    show win0_6.index t (1 : Fin 2) * 256 ≤ (i 1).val ∧ (i 1).val < win0_6.index t (1 : Fin 2) * 256 + 256
    omega

/-- The output array after the run: `update` of the six windows' arrays as the region finds them. -/
theorem final (c : Dev nD) :
    (dats m 0 c).arrAt 6 cfg0.N = update (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) :=
  (dats m 0 c).arrAt_eq_of_cover 6 _ (fun t _ => flushed_eq m c t) cover

/-- Equal arrays give equal updates: the six equations joined at once, each array compared with nothing but its own name. -/
theorem update_congr {s1 s1' s3 s3' s2 s2' s4 s4' h h' : FVec Ideal ⟨2, ![100000, 256]⟩ .f32} {w w' : FVec Ideal ⟨2, ![768, 256]⟩ .f32}
    (e1 : s1 = s1') (e3 : s3 = s3') (e2 : s2 = s2') (e4 : s4 = s4') (eh : h = h') (ew : w = w') :
    update s1 s3 s2 s4 h w = update s1' s3' s2' s4' h' w' := by
  subst e1 e3 e2 e4 eh ew; rfl

/-- The same with the arrays named: the four gathered message sums, the features and the weights as launched. -/
theorem final_named (c : Dev nD) :
    (dats m 0 c).arrAt 6 cfg0.N
      = update (gathered (m ((c : Thread nD τ).loc main_arg1)) (m ((c : Thread nD τ).loc main_arg3)))
          (gathered (m ((c : Thread nD τ).loc main_arg1)) (m ((c : Thread nD τ).loc main_arg5)))
          (gathered (m ((c : Thread nD τ).loc main_arg2)) (m ((c : Thread nD τ).loc main_arg4)))
          (gathered (m ((c : Thread nD τ).loc main_arg2)) (m ((c : Thread nD τ).loc main_arg6)))
          (m ((c : Thread nD τ).loc main_arg0)) (m ((c : Thread nD τ).loc main_arg7)) :=
  (final m c).trans (update_congr (entry_sum1 m c) (entry_sum3 m c) (entry_sum2 m c) (entry_sum4 m c)
    (V_main_arg0 m c) (V_main_arg7 m c))

/-- The kernel's run: every weakly fair execution terminates with the output array at `update` of the gathered
    sums, the features and the weights, and the argument arrays unchanged. -/
theorem run : θ_run defs (onTc (τ := τ) (main (F := Ideal))) ⟨m, fun _ => 0, ρ⟩ fun r => ∀ c : Dev nD,
      r.2.mem ((c : Thread nD τ).loc main_v12)
        = update (gathered (m ((c : Thread nD τ).loc main_arg1)) (m ((c : Thread nD τ).loc main_arg3)))
            (gathered (m ((c : Thread nD τ).loc main_arg1)) (m ((c : Thread nD τ).loc main_arg5)))
            (gathered (m ((c : Thread nD τ).loc main_arg2)) (m ((c : Thread nD τ).loc main_arg4)))
            (gathered (m ((c : Thread nD τ).loc main_arg2)) (m ((c : Thread nD τ).loc main_arg6)))
            (m ((c : Thread nD τ).loc main_arg0)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final_named m c), (h c).2⟩) (run_blocks m ρ)

end Cert.AtomUpdate.Kernel

end
-- ==== Proof.ConcatThree.lean ====
/-
  Three arrays of 100000 rows by 256 columns laid side by side into 768 columns, read at an index.

  Column `c` of the joined array comes from the first array when `c < 256`, from the second when
  `256 ≤ c < 512` (its column `c - 256`), from the third when `512 ≤ c` (its column `c - 512`); the row
  is the same. The three statements below say this with the column written as `k`, `256 + k` and
  `512 + k` for `k < 256`, which is how the contraction over the 768 columns meets them once it has
  been cut into three runs.
-/
import Idealize.ShloMosaic.Lib.Pipeline.Value
import Idealize.ShloMosaic.Lib.ValueIdx

noncomputable section

namespace Cert.AtomUpdate

open Idealize.ShloMosaic Idealize.ShloMosaic.ValueIdx

variable {α : Type}

/-- Columns `0 … 255` of the joined array are the first array's. -/
theorem concat3_first (y0 y1 y2 : (⟨2, ![100000, 256]⟩ : Shape).Idx → α)
    (h : Shape.Concatenates [(⟨2, ![100000, 256]⟩ : Shape), ⟨2, ![100000, 256]⟩, ⟨2, ![100000, 256]⟩] ⟨2, ![100000, 768]⟩ 1)
    (r : Fin 100000) (k : Fin 256) :
    concatenate (⟨2, ![100000, 768]⟩ : Shape) 1
        [⟨⟨2, ![100000, 256]⟩, y0⟩, ⟨⟨2, ![100000, 256]⟩, y1⟩, ⟨⟨2, ![100000, 256]⟩, y2⟩] h
        (ix2 r (⟨k.val, by omega⟩ : Fin 768)) = y0 (ix2 r k) :=
  concatenate_apply_piece (t := ⟨2, ![100000, 768]⟩) (1 : Fin 2) ([⟨⟨2, ![100000, 256]⟩, y0⟩, ⟨⟨2, ![100000, 256]⟩, y1⟩, ⟨⟨2, ![100000, 256]⟩, y2⟩] : List ((s : Shape) × (s.Idx → α))) h
    (ix2 r (⟨k.val, by omega⟩ : Fin 768)) 0 (by show (0 : Nat) < 3; omega) ⟨2, ![100000, 256]⟩ y0 rfl rfl 0 rfl (ix2 r k)
    (fun b hb => by match b with | ⟨0, _⟩ => rfl | ⟨1, _⟩ => exact absurd rfl hb)
    (by show 0 + k.val = k.val; omega)

/-- Columns `256 … 511` of the joined array are the second array's, 256 columns to the left. -/
theorem concat3_second (y0 y1 y2 : (⟨2, ![100000, 256]⟩ : Shape).Idx → α)
    (h : Shape.Concatenates [(⟨2, ![100000, 256]⟩ : Shape), ⟨2, ![100000, 256]⟩, ⟨2, ![100000, 256]⟩] ⟨2, ![100000, 768]⟩ 1)
    (r : Fin 100000) (k : Fin 256) :
    concatenate (⟨2, ![100000, 768]⟩ : Shape) 1
        [⟨⟨2, ![100000, 256]⟩, y0⟩, ⟨⟨2, ![100000, 256]⟩, y1⟩, ⟨⟨2, ![100000, 256]⟩, y2⟩] h
        (ix2 r (⟨256 + k.val, by omega⟩ : Fin 768)) = y1 (ix2 r k) :=
  concatenate_apply_piece (t := ⟨2, ![100000, 768]⟩) (1 : Fin 2) ([⟨⟨2, ![100000, 256]⟩, y0⟩, ⟨⟨2, ![100000, 256]⟩, y1⟩, ⟨⟨2, ![100000, 256]⟩, y2⟩] : List ((s : Shape) × (s.Idx → α))) h
    (ix2 r (⟨256 + k.val, by omega⟩ : Fin 768)) 1 (by show (1 : Nat) < 3; omega) ⟨2, ![100000, 256]⟩ y1 rfl rfl 256 rfl (ix2 r k)
    (fun b hb => by match b with | ⟨0, _⟩ => rfl | ⟨1, _⟩ => exact absurd rfl hb)
    rfl

/-- Columns `512 … 767` of the joined array are the third array's, 512 columns to the left. -/
theorem concat3_third (y0 y1 y2 : (⟨2, ![100000, 256]⟩ : Shape).Idx → α)
    (h : Shape.Concatenates [(⟨2, ![100000, 256]⟩ : Shape), ⟨2, ![100000, 256]⟩, ⟨2, ![100000, 256]⟩] ⟨2, ![100000, 768]⟩ 1)
    (r : Fin 100000) (k : Fin 256) :
    concatenate (⟨2, ![100000, 768]⟩ : Shape) 1
        [⟨⟨2, ![100000, 256]⟩, y0⟩, ⟨⟨2, ![100000, 256]⟩, y1⟩, ⟨⟨2, ![100000, 256]⟩, y2⟩] h
        (ix2 r (⟨512 + k.val, by omega⟩ : Fin 768)) = y2 (ix2 r k) :=
  concatenate_apply_piece (t := ⟨2, ![100000, 768]⟩) (1 : Fin 2) ([⟨⟨2, ![100000, 256]⟩, y0⟩, ⟨⟨2, ![100000, 256]⟩, y1⟩, ⟨⟨2, ![100000, 256]⟩, y2⟩] : List ((s : Shape) × (s.Idx → α))) h
    (ix2 r (⟨512 + k.val, by omega⟩ : Fin 768)) 2 (by show (2 : Nat) < 3; omega) ⟨2, ![100000, 256]⟩ y2 rfl rfl 512 rfl (ix2 r k)
    (fun b hb => by match b with | ⟨0, _⟩ => rfl | ⟨1, _⟩ => exact absurd rfl hb)
    rfl

end Cert.AtomUpdate

end
-- ==== Proof.LibSumThreeRuns.lean ====
/-
  A finite sum over consecutive indices, cut into three consecutive runs.

  For `n = a + b + c`, the indices `0, …, n - 1` are the first `a` of them, then the next `b`
  (those of the form `a + k`), then the last `c` (those of the form `a + b + k`), and a sum over all of
  them is the sum of the three partial sums. Only associativity and commutativity of addition are
  used — nothing is cancelled and nothing is distributed — so the statement holds in every
  commutative additive monoid, the extended reals with their infinities included.
-/
import Mathlib.Algebra.BigOperators.Fin

namespace Cert.Lib

open Finset

/-- A sum over `Fin n`, `n = a + b + c`, is the sum over the first `a` indices, plus the sum over the
    next `b` (index `a + k`), plus the sum over the last `c` (index `a + b + k`). The extents are given
    by an equation `h`, so that a literal `n` (say `768` for three runs of `256`) is matched by `rfl`. -/
theorem sum_three_runs {M : Type*} [AddCommMonoid M] (a b c n : ℕ) (h : a + b + c = n) (f : Fin n → M) :
    ∑ k : Fin n, f k
      = (∑ k : Fin a, f ⟨k.val, by omega⟩ + ∑ k : Fin b, f ⟨a + k.val, by omega⟩)
        + ∑ k : Fin c, f ⟨a + b + k.val, by omega⟩ := by
  subst h
  rw [Fin.sum_univ_add, Fin.sum_univ_add]
  rfl

end Cert.Lib
-- ==== Proof.Reference.lean ====
/-
  The reference computes `update`.

  The reference lays the two differences of gathered message sums and the atoms' features side by
  side into one array of 768 columns and contracts it once against the 768 weight rows: entry
  `(r, q)` is the sum over `c < 768` of the joined array's entry `(r, c)` times the weight's entry
  `(c, q)`. Cutting that sum into its three runs of 256 columns, and reading the joined array in each
  run from the array it came from, gives exactly the three contractions of the specification. The
  gathered sums themselves are kept as they are: they are the same four arrays on both sides.
-/
import proofs.«123164_j33200097198200_1_alg».proof.Proof.Gen.ReferenceIdeal.Read
import proofs.«123164_j33200097198200_1_alg».proof.Proof.Spec
import proofs.«123164_j33200097198200_1_alg».proof.Proof.ConcatThree
import proofs.«123164_j33200097198200_1_alg».proof.Proof.LibSumThreeRuns

noncomputable section

namespace Cert.AtomUpdate.Ref

open Cert.ReferenceIdeal Cert.ReferenceIdeal.Gen Cert.ReferenceIdeal.Read
open Idealize.ShloMosaic Idealize.ShloMosaic.ValueIdx Cert.AtomUpdate

/-- The reference's last stage, as a whole array, is `update` of the four gathered sums, the features and
    the weights. -/
theorem reference_is_update (x0 : (⟨S100000x256, .f32⟩ : BufTy).Contents (Elt Ideal))
    (x1 x2 : (⟨S800000x256, .f32⟩ : BufTy).Contents (Elt Ideal))
    (x3 x4 x5 x6 : (⟨S800000, .i32⟩ : BufTy).Contents (Elt Ideal))
    (x7 : (⟨S768x256, .f32⟩ : BufTy).Contents (Elt Ideal)) :
    val_main_v15 (F := Ideal) x0 x1 x2 x3 x4 x5 x6 x7
      = update (val_main_v2 (F := Ideal) x1 x3) (val_main_v5 (F := Ideal) x1 x5)
          (val_main_v9 (F := Ideal) x2 x4) (val_main_v12 (F := Ideal) x2 x6) x0 x7 := by
  funext i
  obtain ⟨r, q, rfl⟩ : ∃ (r : Fin 100000) (q : Fin 256), i = ix2 r q := ⟨i 0, i 1, eq_ix2 i⟩
  rw [val_main_v15_apply, update_apply, Cert.Lib.sum_three_runs 256 256 256 768 rfl]
  unfold entry
  refine congrArg₂ (· + ·) (congrArg₂ (· + ·) ?_ ?_) ?_
  · refine Finset.sum_congr rfl fun k _ => ?_
    have hk : k.val < 768 := by omega
    have hl : lidx_main_v15 (ix2 r q) ⟨k.val, hk⟩ = ix2 r (⟨k.val, hk⟩ : Fin 768) :=
      funext fun a => Fin.ext (by match a with | ⟨0, _⟩ => rfl | ⟨1, _⟩ => rfl)
    have hr : ridx_main_v15 (ix2 r q) ⟨k.val, hk⟩ = ix2 (⟨k.val, hk⟩ : Fin 768) q :=
      funext fun a => Fin.ext (by match a with | ⟨0, _⟩ => rfl | ⟨1, _⟩ => rfl)
    have hc : val_main_v14 (F := Ideal) x0 x1 x2 x3 x4 x5 x6 (ix2 r (⟨k.val, hk⟩ : Fin 768))
        = val_main_v6 (F := Ideal) x1 x3 x5 (ix2 r k) := concat3_first _ _ _ _ r k
    show val_main_v14 (F := Ideal) x0 x1 x2 x3 x4 x5 x6 (lidx_main_v15 (ix2 r q) ⟨k.val, hk⟩)
        * x7 (ridx_main_v15 (ix2 r q) ⟨k.val, hk⟩) = _
    rw [hl, hr, hc, val_main_v6_apply]
    rfl
  · refine Finset.sum_congr rfl fun k _ => ?_
    have hk : 256 + k.val < 768 := by omega
    have hl : lidx_main_v15 (ix2 r q) ⟨256 + k.val, hk⟩ = ix2 r (⟨256 + k.val, hk⟩ : Fin 768) :=
      funext fun a => Fin.ext (by match a with | ⟨0, _⟩ => rfl | ⟨1, _⟩ => rfl)
    have hr : ridx_main_v15 (ix2 r q) ⟨256 + k.val, hk⟩ = ix2 (⟨256 + k.val, hk⟩ : Fin 768) q :=
      funext fun a => Fin.ext (by match a with | ⟨0, _⟩ => rfl | ⟨1, _⟩ => rfl)
    have hc : val_main_v14 (F := Ideal) x0 x1 x2 x3 x4 x5 x6 (ix2 r (⟨256 + k.val, hk⟩ : Fin 768))
        = val_main_v13 (F := Ideal) x2 x4 x6 (ix2 r k) := concat3_second _ _ _ _ r k
    show val_main_v14 (F := Ideal) x0 x1 x2 x3 x4 x5 x6 (lidx_main_v15 (ix2 r q) ⟨256 + k.val, hk⟩)
        * x7 (ridx_main_v15 (ix2 r q) ⟨256 + k.val, hk⟩) = _
    rw [hl, hr, hc, val_main_v13_apply]
    rfl
  · refine Finset.sum_congr rfl fun k _ => ?_
    have hk : 512 + k.val < 768 := by omega
    have hl : lidx_main_v15 (ix2 r q) ⟨256 + 256 + k.val, by omega⟩ = ix2 r (⟨512 + k.val, hk⟩ : Fin 768) :=
      funext fun a => Fin.ext (by match a with | ⟨0, _⟩ => rfl | ⟨1, _⟩ => rfl)
    have hr : ridx_main_v15 (ix2 r q) ⟨256 + 256 + k.val, by omega⟩ = ix2 (⟨512 + k.val, hk⟩ : Fin 768) q :=
      funext fun a => Fin.ext (by match a with | ⟨0, _⟩ => rfl | ⟨1, _⟩ => rfl)
    have hc : val_main_v14 (F := Ideal) x0 x1 x2 x3 x4 x5 x6 (ix2 r (⟨512 + k.val, hk⟩ : Fin 768))
        = x0 (ix2 r k) := concat3_third _ _ _ _ r k
    show val_main_v14 (F := Ideal) x0 x1 x2 x3 x4 x5 x6 (lidx_main_v15 (ix2 r q) ⟨256 + 256 + k.val, by omega⟩)
        * x7 (ridx_main_v15 (ix2 r q) ⟨256 + 256 + k.val, by omega⟩) = _
    rw [hl, hr, hc]

end Cert.AtomUpdate.Ref

end
-- ==== Proof.lean ====
/-
  The atom update of a message-passing layer: the fused kernel against the plain reference.

  Both programs first form four per-atom sums of edge messages (`gathered`: the first message array
  summed by the first and by the third index array, the second by the second and by the fourth); these
  four arrays are formed by the same operations from the same arguments in both programs and are
  carried through unopened. From them, the atoms' features `h` and the 768×256 weight matrix `w`:

  * the kernel, for each block of 1000 atoms, subtracts the sums in pairs, multiplies
    `s1 - s3` with weight rows 0–255, `s2 - s4` with rows 256–511 and `h` with rows 512–767, each
    product into a zero accumulator, and adds the three products;
  * the reference lays `s1 - s3`, `s2 - s4` and `h` side by side into 768 columns and contracts that
    array once with all 768 weight rows.

  Over the extended reals each is, at entry `(r, q)`, the sum over 768 products cut into its three runs
  of 256 (`Cert.AtomUpdate.update`): the kernel's blocks tile the output, so its output array is
  `update` everywhere (`Kernel.run`), and the reference's contraction splits into the three runs with
  the joined array read back piece by piece (`Ref.reference_is_update`). The only law used is that a
  finite sum may be cut into consecutive runs — associativity and commutativity of addition, valid
  with infinite summands — so the finiteness of the inputs is never called on. Narrowing to a shorter
  float format before a product is the identity on extended reals; reading the kernel over the extended
  reals rewrote none of its operations, so there is nothing to preserve beyond the program's own text.
-/
import proofs.«123164_j33200097198200_1_alg».proof.Defs
import proofs.«123164_j33200097198200_1_alg».proof.Proof.Gen.Kernel
import proofs.«123164_j33200097198200_1_alg».proof.Proof.Gen.Kernel.Skeleton
import proofs.«123164_j33200097198200_1_alg».proof.Proof.Gen.Kernel.Launch
import proofs.«123164_j33200097198200_1_alg».proof.Proof.Gen.Kernel.Points
import proofs.«123164_j33200097198200_1_alg».proof.Proof.Gen.Kernel.Frame
import proofs.«123164_j33200097198200_1_alg».proof.Proof.Gen.KernelIdeal
import proofs.«123164_j33200097198200_1_alg».proof.Proof.Gen.KernelIdeal.Skeleton
import proofs.«123164_j33200097198200_1_alg».proof.Proof.Gen.KernelIdeal.Launch
import proofs.«123164_j33200097198200_1_alg».proof.Proof.Gen.KernelIdeal.Points
import proofs.«123164_j33200097198200_1_alg».proof.Proof.Gen.KernelIdeal.Frame
import proofs.«123164_j33200097198200_1_alg».proof.Proof.Gen.ReferenceIdeal
import proofs.«123164_j33200097198200_1_alg».proof.Proof.Gen.Pre_finite_inputs
import proofs.«123164_j33200097198200_1_alg».proof.Proof.Gen.KernelIdeal.Value
import proofs.«123164_j33200097198200_1_alg».proof.Proof.Gen.ReferenceIdeal.Run
import proofs.«123164_j33200097198200_1_alg».proof.Proof.Gen.ReferenceIdeal.Read
import proofs.«123164_j33200097198200_1_alg».proof.Proof.Blocks
import proofs.«123164_j33200097198200_1_alg».proof.Proof.Reference
import Idealize.ShloMosaic.Adequacy
import Idealize.ShloMosaic.Init

noncomputable section

namespace Cert.Proof

open Idealize.ShloMosaic Idealize.ShloMosaic.TcCoe Idealize.SL.Sem
open Cert.AtomUpdate Cert.AtomUpdate.Kernel

/-! ## The gathered sums are the same arrays in both programs -/

/-- The kernel program's gathered sum of `x` by `id` is the reference's first gathered stage. -/
theorem gathered_first (x : (⟨Cert.KernelIdeal.S800000x256, .f32⟩ : BufTy).Contents (Elt Ideal))
    (id : (⟨Cert.KernelIdeal.S800000, .i32⟩ : BufTy).Contents (Elt Ideal)) :
    Cert.ReferenceIdeal.Read.val_main_v2 (F := Ideal) x id = gathered x id := rfl

/-- … its second gathered stage, -/
theorem gathered_second (x : (⟨Cert.KernelIdeal.S800000x256, .f32⟩ : BufTy).Contents (Elt Ideal))
    (id : (⟨Cert.KernelIdeal.S800000, .i32⟩ : BufTy).Contents (Elt Ideal)) :
    Cert.ReferenceIdeal.Read.val_main_v5 (F := Ideal) x id = gathered x id := rfl

/-- … its third, -/
theorem gathered_third (x : (⟨Cert.KernelIdeal.S800000x256, .f32⟩ : BufTy).Contents (Elt Ideal))
    (id : (⟨Cert.KernelIdeal.S800000, .i32⟩ : BufTy).Contents (Elt Ideal)) :
    Cert.ReferenceIdeal.Read.val_main_v9 (F := Ideal) x id = gathered x id := rfl

/-- … and its fourth. -/
theorem gathered_fourth (x : (⟨Cert.KernelIdeal.S800000x256, .f32⟩ : BufTy).Contents (Elt Ideal))
    (id : (⟨Cert.KernelIdeal.S800000, .i32⟩ : BufTy).Contents (Elt Ideal)) :
    Cert.ReferenceIdeal.Read.val_main_v12 (F := Ideal) x id = gathered x id := rfl

/-! ## The claims -/

/-- The kernel as printed runs and leaves its arguments unchanged. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference runs and leaves its arguments unchanged: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- From memories that agree on the arguments, both programs end with the output at `update` of the four gathered sums,
    the features and the weights. -/
theorem algebraic : Cert.algebraic_KernelIdeal_ReferenceIdeal := by
  intro m ρ m' ρ' _ hagree
  refine ⟨_, Cert.AtomUpdate.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v15_eq, Cert.AtomUpdate.Ref.reference_is_update,
    e0, e1, e2, e3, e4, e5, e6, e7, gathered_first, gathered_second, gathered_third, gathered_fourth]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
